-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  main_v3
-- ==== Kernel.lean ====
abbrev S32x1x1024x1024 : Shape := ⟨4, ![32, 1, 1024, 1024]⟩
abbrev S32x4x1024x1024 : Shape := ⟨4, ![32, 4, 1024, 1024]⟩
abbrev S1x1x512x1024 : Shape := ⟨4, ![1, 1, 512, 1024]⟩
abbrev S1x4x512x1024 : Shape := ⟨4, ![1, 4, 512, 1024]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32x1x1024x1024, .f32⟩
  | .hbm, ⟨1, _⟩ => ⟨S32x4x1024x1024, .f32⟩
  | .local _ .vmem, ⟨0, _⟩ => ⟨S1x1x512x1024, .f32⟩
  | .local _ .vmem, ⟨1, _⟩ => ⟨S1x1x512x1024, .f32⟩
  | .local _ .vmem, ⟨2, _⟩ => ⟨S1x4x512x1024, .f32⟩
  | .local _ .vmem, ⟨3, _⟩ => ⟨S1x4x512x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  shapeCasts_S1x1x512x1024_S512x1024 : S1x1x512x1024.ShapeCasts S512x1024
  natLt_1_32 : 1 < 32
  inb_S1x4x512x1024_S1x1x512x1024_0_0_0_0 : ∀ a, (![0, 0, 0, 0] : Fin 4 → Nat) a + S1x1x512x1024.size a ≤ S1x4x512x1024.size a
  shapeCasts_S512x1024_S1x1x512x1024 : S512x1024.ShapeCasts S1x1x512x1024
  inb_S1x4x512x1024_S1x1x512x1024_0_1_0_0 : ∀ a, (![0, 1, 0, 0] : Fin 4 → Nat) a + S1x1x512x1024.size a ≤ S1x4x512x1024.size a
  inb_S1x4x512x1024_S1x1x512x1024_0_2_0_0 : ∀ a, (![0, 2, 0, 0] : Fin 4 → Nat) a + S1x1x512x1024.size a ≤ S1x4x512x1024.size a
  inb_S1x4x512x1024_S1x1x512x1024_0_3_0_0 : ∀ a, (![0, 3, 0, 0] : Fin 4 → Nat) a + S1x1x512x1024.size a ≤ S1x4x512x1024.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x1024.size a ≤ S32x1x1024x1024.size a
  hwx0_0 : ∀ i : grid0.Coords, EltTy.bits .f32 = 32 ∨ (Rect.block (s := S32x1x1024x1024) S1x1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x512x1024.size a ≤ S32x4x1024x1024.size a
  hwx0_1 : ∀ i : grid0.Coords, EltTy.bits .f32 = 32 ∨ (Rect.block (s := S32x4x1024x1024) S1x4x512x1024.size (cc0_transform_1 i) (hinb0_1 i)).WholeWords (EltTy.packing .f32)

variable [Facts₀]

abbrev win0_0 : Pipeline.Window sig grid0 :=
  Pipeline.Window.ofSpec (Memref.whole main_arg0) S1x1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4x512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S4 : Shape := ⟨1, ![4]⟩
abbrev S1x4x1x1 : Shape := ⟨4, ![1, 4, 1, 1]⟩
abbrev S32x4x1024x1024 : Shape := ⟨4, ![32, 4, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S4, .f32⟩
  | .hbm, ⟨2, _⟩ => ⟨S1x4x1x1, .f32⟩
  | .hbm, ⟨3, _⟩ => ⟨S32x4x1024x1024, .f32⟩
  | .hbm, ⟨4, _⟩ => ⟨S32x4x1024x1024, .f32⟩
  | .hbm, ⟨5, _⟩ => ⟨S32x4x1024x1024, .i1⟩
  | .hbm, ⟨6, _⟩ => ⟨S32x4x1024x1024, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  bcast_S4_S1x4x1x1_1 : S4.BroadcastsInDim S1x4x1x1 (![1] : Fin 1 → Fin S1x4x1x1.rank)
  bcast_S32x1x1024x1024_S32x4x1024x1024_0_1_2_3 : S32x1x1024x1024.BroadcastsInDim S32x4x1024x1024 (![0, 1, 2, 3] : Fin 4 → Fin S32x4x1024x1024.rank)
  bcast_S1x4x1x1_S32x4x1024x1024_0_1_2_3 : S1x4x1x1.BroadcastsInDim S32x4x1024x1024 (![0, 1, 2, 3] : Fin 4 → Fin S32x4x1024x1024.rank)

variable [Facts₀]

class Facts : Prop extends Facts₀ where

variable [Facts]
-- ==== Proof.Spec.lean ====
/-
  The statement both programs are compared with, and the one law that joins them.

  Each program turns a score map `x` of shape [32, 1, 1024, 1024] into four binary maps, one per threshold,
  stacked on the second axis: the entry at (n, k, h, w) is 1 when x(n, 0, h, w) lies strictly above the k-th
  threshold and 0 otherwise.  Over the extended reals the comparison is the comparison of the linear order, and
  there is nothing to round, so the only place where the two programs differ is how the one-bit answer of the
  comparison becomes a number: one program widens the bit to a 32-bit word without a sign and then reads that
  word as a signed integer, the other reads the bit itself as an unsigned integer.  A one-bit word is 0 or 1, its
  zero-extension to 32 bits has a clear top bit, so the signed reading of the extension is the unsigned reading
  of the bit (`signed_widening_eq_unsigned`).
-/
import Idealize.ShloMosaic.PureOps.Ideal
import Idealize.ShloMosaic.Lib.ValueIdx

noncomputable section

namespace Cert.Threshold

open Idealize.ShloMosaic Idealize.ShloMosaic.ValueIdx

/-- The four thresholds, as the single-precision words both programs spell: 0.2, 0.3, 0.4 and 0.5 rounded to
    single precision. The same word denotes the same extended real on both sides, so it is never evaluated. -/
def thresholdWord : Fin 4 → BitVec 32
  | 0 => 0x3E4CCCCD#32
  | 1 => 0x3E99999A#32
  | 2 => 0x3ECCCCCD#32
  | 3 => 0x3F000000#32

/-- The indicator of `x` lying strictly above the number a word denotes: 1 or 0 as an extended real. -/
def above (x : EReal) (w : BitVec 32) : EReal :=
  FloatOps.uitofp (F := Ideal) .f32 (FloatOps.cmpf (F := Ideal) .ogt x (FloatOps.ofBits (F := Ideal) .f32 w))

/-- The four stacked binary maps of a score map: entry (n, k, h, w) is the indicator of x(n, 0, h, w) above
    the k-th threshold. -/
def bitmaps (x : (⟨4, ![32, 1, 1024, 1024]⟩ : Shape).Idx → EReal) : (⟨4, ![32, 4, 1024, 1024]⟩ : Shape).Idx → EReal :=
  fun i => above (x (ix4 (i 0 : Fin 32) (0 : Fin 1) (i 2 : Fin 1024) (i 3 : Fin 1024))) (thresholdWord (i 1 : Fin 4))

theorem bitmaps_apply (x : (⟨4, ![32, 1, 1024, 1024]⟩ : Shape).Idx → EReal) (n : Fin 32) (k : Fin 4) (h w : Fin 1024) :
    bitmaps x (ix4 n k h w) = above (x (ix4 n (0 : Fin 1) h w)) (thresholdWord k) := rfl

/-- Zero-extending one bit to 32 bits and reading the result as a SIGNED integer gives the bit read as an
    UNSIGNED integer: both are 0 or 1. -/
theorem signed_widening_eq_unsigned (b : BitVec 1) : (b.setWidth 32).toInt = (b.toNat : Int) := by
  revert b; decide

/-- The same at the extended reals: converting the widened bit as a signed integer is converting the bit as an
    unsigned one. -/
theorem sitofp_widened_bit (b : BitVec 1) :
    FloatOps.sitofp (F := Ideal) .f32 (b.setWidth 32) = FloatOps.uitofp (F := Ideal) .f32 b := by
  show (((b.setWidth 32).toInt : ℝ) : EReal) = (((b.toNat : ℕ) : ℝ) : EReal)
  rw [signed_widening_eq_unsigned]
  norm_cast

end Cert.Threshold

end
-- ==== Proof.RefRun.lean ====
/-
  The reference program's run, read back.

  The reference is six host operations and no kernel: the table of the four thresholds, that table laid along the
  second axis of a [1, 4, 1, 1] array, the score map repeated four times along its unit second axis, the thresholds
  repeated over the three other axes, the comparison "strictly above" of the two full arrays, and the one-bit answer
  read as an unsigned integer.  Listed in order, every weakly fair execution runs them one after the other and ends with
  the result array at their composition applied to the score map as launched, and with the score map untouched
  (`run`).  Read at one index (n, k, h, w) the composition is the indicator of x(n, 0, h, w) above the k-th threshold
  (`result_eq_bitmaps`): each repetition reads its operand at the coordinates it keeps and at 0 on the axes it
  stretches, and the table's row-major position of its k-th entry is k.
-/
import proofs.«127705_j34935263986230_2_alg».proof.Proof.Gen.ReferenceIdeal
import proofs.«127705_j34935263986230_2_alg».proof.Proof.Spec
import Idealize.ShloMosaic.Lib.StableHlo.Run
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Threshold

variable {F : FTy → Type} [FloatOps F]

/-- The reference's six operations, in order. -/
abbrev ops : List (HloOp τ sig (Elt F)) :=
  [ nullary main_cst (fun i => FloatOps.ofBits .f32 (lit0 (S4.rowMajor i))),
    unary main_cst main_v0 (broadcastInDim S1x4x1x1 ![1] bcast_S4_S1x4x1x1_1 : (⟨S4, .f32⟩ : BufTy).Contents (Elt F) → (⟨S1x4x1x1, .f32⟩ : BufTy).Contents (Elt F)),
    unary main_arg0 main_v1 (broadcastInDim S32x4x1024x1024 ![0, 1, 2, 3] bcast_S32x1x1024x1024_S32x4x1024x1024_0_1_2_3 : (⟨S32x1x1024x1024, .f32⟩ : BufTy).Contents (Elt F) → (⟨S32x4x1024x1024, .f32⟩ : BufTy).Contents (Elt F)),
    unary main_v0 main_v2 (broadcastInDim S32x4x1024x1024 ![0, 1, 2, 3] bcast_S1x4x1x1_S32x4x1024x1024_0_1_2_3 : (⟨S1x4x1x1, .f32⟩ : BufTy).Contents (Elt F) → (⟨S32x4x1024x1024, .f32⟩ : BufTy).Contents (Elt F)),
    binary main_v1 main_v2 main_v3 (cmpf .ogt : (⟨S32x4x1024x1024, .f32⟩ : BufTy).Contents (Elt F) → (⟨S32x4x1024x1024, .f32⟩ : BufTy).Contents (Elt F) → (⟨S32x4x1024x1024, .i1⟩ : BufTy).Contents (Elt F)),
    unary main_v3 main_v4 (uitofp .f32 : (⟨S32x4x1024x1024, .i1⟩ : BufTy).Contents (Elt F) → (⟨S32x4x1024x1024, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..⟩

/-- The composition of the six operations, as one function of the score map. -/
def result (x : FVec F S32x1x1024x1024 .f32) : FVec F S32x4x1024x1024 .f32 :=
  uitofp .f32 (cmpf .ogt (broadcastInDim S32x4x1024x1024 ![0, 1, 2, 3] bcast_S32x1x1024x1024_S32x4x1024x1024_0_1_2_3 x)
    (broadcastInDim S32x4x1024x1024 ![0, 1, 2, 3] bcast_S1x4x1x1_S32x4x1024x1024_0_1_2_3
      (broadcastInDim S1x4x1x1 ![1] bcast_S4_S1x4x1x1_1 (fun i : S4.Idx => FloatOps.ofBits (F := F) .f32 (lit0 (S4.rowMajor i))))))

/-- On every device, from any memory with zero counters: every weakly fair execution of the reference terminates
    with the result array at the six operations' composition of the score map, and the score map unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = result (m ((c.tc : Thread nD τ).loc main_arg0))
      ∧ r.2.mem ((c.tc : Thread nD τ).loc main_arg0) = m ((c.tc : Thread nD τ).loc main_arg0) :=
  (θ_run defs _ _).mono (fun _ h c => ⟨(h c main_v4).trans (by after_results; rfl),
      (h c main_arg0).trans (by after_results)⟩)
    (run_seq scopedRefs_eq scopedSems_eq defs main (fun _ => ops) main_eq (fun _ => ops_sub) m ρ)

/-- The table's k-th entry, found at its row-major position, is the k-th threshold. -/
theorem table_entry : ∀ k : Fin 4, lit0 (S4.rowMajor (ix1 k)) = thresholdWord k := by decide

/-- Read at (n, k, h, w), the composition compares x(n, 0, h, w) with the k-th threshold: it is the stacked binary
    maps of the specification. -/
theorem result_eq_bitmaps (x : FVec Ideal S32x1x1024x1024 .f32) : result (F := Ideal) x = bitmaps x := by
  funext i
  obtain ⟨n, k, h, w, rfl⟩ : ∃ (n : Fin 32) (k : Fin 4) (h w : Fin 1024), i = ix4 n k h w := ⟨i 0, i 1, i 2, i 3, eq_ix4 i⟩
  rw [bitmaps_apply]
  unfold result above
  show FloatOps.uitofp (F := Ideal) .f32 (FloatOps.cmpf (F := Ideal) .ogt
      (broadcastInDim S32x4x1024x1024 ![0, 1, 2, 3] bcast_S32x1x1024x1024_S32x4x1024x1024_0_1_2_3 x (ix4 n k h w))
      (broadcastInDim S32x4x1024x1024 ![0, 1, 2, 3] bcast_S1x4x1x1_S32x4x1024x1024_0_1_2_3
        (broadcastInDim S1x4x1x1 ![1] bcast_S4_S1x4x1x1_1 (fun i : S4.Idx => FloatOps.ofBits (F := Ideal) .f32 (lit0 (S4.rowMajor i)))) (ix4 n k h w))) = _
  rw [broadcastInDim_apply _ bcast_S32x1x1024x1024_S32x4x1024x1024_0_1_2_3 x (ix4 n k h w) (ix4 n (0 : Fin 1) h w)
      (fun a => by match a with | ⟨0, _⟩ => rfl | ⟨1, _⟩ => rfl | ⟨2, _⟩ => rfl | ⟨3, _⟩ => rfl),
    broadcastInDim_apply _ bcast_S1x4x1x1_S32x4x1024x1024_0_1_2_3 _ (ix4 n k h w) (ix4 (0 : Fin 1) k (0 : Fin 1) (0 : Fin 1))
      (fun a => by match a with | ⟨0, _⟩ => rfl | ⟨1, _⟩ => rfl | ⟨2, _⟩ => rfl | ⟨3, _⟩ => rfl),
    broadcastInDim_apply _ bcast_S4_S1x4x1x1_1 _ (ix4 (0 : Fin 1) k (0 : Fin 1) (0 : Fin 1)) (ix1 k)
      (fun a => by match a with | ⟨0, _⟩ => rfl)]
  show FloatOps.uitofp (F := Ideal) .f32 (FloatOps.cmpf (F := Ideal) .ogt (x (ix4 n (0 : Fin 1) h w))
      (FloatOps.ofBits (F := Ideal) .f32 (lit0 (S4.rowMajor (ix1 k))))) = _
  rw [table_entry]

end Cert.ReferenceIdeal.RefValue

end
-- ==== Proof.Body.lean ====
/-
  What the kernel's body leaves in one output block.

  At a grid point the body sees a [1, 1, 512, 1024] block `x0` of the score map and fills a [1, 4, 512, 1024] block of
  the result with four stores, one per threshold, the k-th store covering the slab whose second coordinate is k.
  Each store's value is computed on the block viewed as a [512, 1024] matrix and viewed back as [1, 1, 512, 1024]
  before it is stored; the two re-layings undo each other and everything between them acts entry by entry, so the
  value at a local index j is the indicator of x0(j) above that store's threshold (`slab_apply`; the widened bit
  read as a signed integer is the bit read unsigned, by the specification's law).  The four slabs tile the block,
  and under the k-th slab the block's index (0, k, h, w) sits over the local index (0, 0, h, w): so the block after
  the body is one function of its index, the indicator of x0(0, 0, h, w) above the k-th threshold (`out_eq`).
-/
import proofs.«127705_j34935263986230_2_alg».proof.Proof.Gen.KernelIdeal.Frame
import proofs.«127705_j34935263986230_2_alg».proof.Proof.Spec
import Idealize.ShloMosaic.Lib.Pipeline.Value
import Idealize.ShloMosaic.Lib.ValueIdx

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Cert.Threshold

/-- One store's value at a local index: the block is viewed as a matrix, compared entry by entry with a constant,
    the one-bit answer widened and converted, and the matrix viewed back as a block. The two views cancel. -/
theorem slab_apply (c : BitVec 32) (v0 : Vec Ideal S1x1x512x1024 .f32) (j : S1x1x512x1024.Idx) :
    shapeCast S1x1x512x1024
      (sitofp (F := Ideal) .f32 (extui 32 (cmpf .ogt (shapeCast S512x1024 v0 shapeCasts_S1x1x512x1024_S512x1024)
        (broadcast S512x1024 (Scalar.ofBits (F := Ideal) .f32 c))) natLt_1_32))
      shapeCasts_S512x1024_S1x1x512x1024 j = above (v0 j) c := by
  have e := congrFun (shapeCast_shapeCast v0 shapeCasts_S1x1x512x1024_S512x1024 shapeCasts_S512x1024_S1x1x512x1024) j
  rw [← e]
  exact sitofp_widened_bit _

theorem slab0_apply (v0 : Vec Ideal S1x1x512x1024 .f32) (j : S1x1x512x1024.Idx) :
    k0_pay2 (F := Ideal) v0 j = above (v0 j) (thresholdWord 0) := slab_apply _ v0 j
theorem slab1_apply (v0 : Vec Ideal S1x1x512x1024 .f32) (j : S1x1x512x1024.Idx) :
    k0_pay3 (F := Ideal) v0 j = above (v0 j) (thresholdWord 1) := slab_apply _ v0 j
theorem slab2_apply (v0 : Vec Ideal S1x1x512x1024 .f32) (j : S1x1x512x1024.Idx) :
    k0_pay4 (F := Ideal) v0 j = above (v0 j) (thresholdWord 2) := slab_apply _ v0 j
theorem slab3_apply (v0 : Vec Ideal S1x1x512x1024 .f32) (j : S1x1x512x1024.Idx) :
    k0_pay5 (F := Ideal) v0 j = above (v0 j) (thresholdWord 3) := slab_apply _ v0 j

/-- The block the body leaves, as one function of the block's index: the indicator of the input block at
    (0, 0, h, w) above the threshold the second coordinate names. -/
def blockBitmaps (x0 : Vec Ideal S1x1x512x1024 .f32) : S1x4x512x1024.Idx → EReal :=
  fun y => above (x0 (ix4 (0 : Fin 1) (0 : Fin 1) (y 2 : Fin 512) (y 3 : Fin 1024))) (thresholdWord (y 1 : Fin 4))

theorem zero_offsets : (![0, 0, 0, 0] : Fin 4 → Nat) = fun _ => 0 := funext fun a => by fin_cases a <;> rfl

/-- Under the slab at second coordinate `k`, the local index `x` sits at (0, k, x 2, x 3) of the block, and the
    block function read there is the indicator of `x0 x` above the k-th threshold. -/
theorem blockBitmaps_under_slab (x0 : Vec Ideal S1x1x512x1024 .f32) (k : Fin 4)
    (inb : ∀ a, (![0, k.val, 0, 0] : Fin 4 → Nat) a + S1x1x512x1024.size a ≤ S1x4x512x1024.size a)
    (x : S1x1x512x1024.Idx) :
    above (x0 x) (thresholdWord k)
      = blockBitmaps x0 ((Rect.unit (s := S1x4x512x1024) ![0, k.val, 0, 0] S1x1x512x1024.size inb).emb x) := by
  have h0 : (x 0).val < 1 := (x 0).isLt
  have h1 : (x 1).val < 1 := (x 1).isLt
  unfold blockBitmaps
  congr 1
  · refine congrArg x0 (funext fun a => Fin.ext ?_)
    match a with
    | ⟨0, _⟩ => show (x 0).val = 0; omega
    | ⟨1, _⟩ => show (x 1).val = 0; omega
    | ⟨2, _⟩ => show (x 2).val = 0 + 1 * (x 2).val; omega
    | ⟨3, _⟩ => show (x 3).val = 0 + 1 * (x 3).val; omega
  · refine congrArg thresholdWord (Fin.ext ?_)
    show k.val = k.val + 1 * (x 1).val
    omega

/-- The block after the body's four stores is `blockBitmaps` of the input block: every index lies under one of the four
    slabs, and each slab's value agrees with the block function there. -/
theorem out_eq (x0 : Vec Ideal S1x1x512x1024 .f32) : out0_1 (F := Ideal) x0 = blockBitmaps x0 := by
  funext y
  unfold out0_1
  refine View.canon_apply_of_pieces (Val := Elt Ideal) (blockBitmaps x0) _ ?_ y (cover0_1 _ _ _ _ y)
  intro p hp x
  simp only [List.mem_cons, List.not_mem_nil, or_false] at hp
  rcases hp with rfl | rfl | rfl | rfl
  · show k0_pay5 (F := Ideal) (View.ld x0 r0_0) x = _
    rw [slab3_apply, View.ld_unit_zero (S := S1x1x512x1024) zero_offsets]
    exact blockBitmaps_under_slab x0 3 inb_S1x4x512x1024_S1x1x512x1024_0_3_0_0 x
  · show k0_pay4 (F := Ideal) (View.ld x0 r0_0) x = _
    rw [slab2_apply, View.ld_unit_zero (S := S1x1x512x1024) zero_offsets]
    exact blockBitmaps_under_slab x0 2 inb_S1x4x512x1024_S1x1x512x1024_0_2_0_0 x
  · show k0_pay3 (F := Ideal) (View.ld x0 r0_0) x = _
    rw [slab1_apply, View.ld_unit_zero (S := S1x1x512x1024) zero_offsets]
    exact blockBitmaps_under_slab x0 1 inb_S1x4x512x1024_S1x1x512x1024_0_1_0_0 x
  · show k0_pay2 (F := Ideal) (View.ld x0 r0_0) x = _
    rw [slab0_apply, View.ld_unit_zero (S := S1x1x512x1024) zero_offsets]
    exact blockBitmaps_under_slab x0 0 inb_S1x4x512x1024_S1x1x512x1024_0_0_0_0 x

end Cert.KernelIdeal.Body

end
-- ==== Proof.Blocks.lean ====
/-
  From the blocks to the whole result array.

  The grid has 32 × 2 points. Point (n, s) reads the block of the score map with first coordinate n and rows
  512·s … 512·s + 511, and writes back the block of the result with first coordinate n, all four maps, and the same
  rows: on every axis the two blocks start at the same multiple of their sizes, and on the second axis both start at
  0 (`index_facts`, decided over the 64 points).  So the block a point writes back is the block at that point of
  ONE function of the whole score map, the stacked binary maps of the specification: the block function of the body,
  read at a local index, looks up the score map exactly where the specification does for the array index above it
  (`flushed_eq`).  Every index (n, k, h, w) of the result lies in the block of the point (n, h / 512)
  (`covered`), so after the run the result array IS the stacked binary maps of the score map as launched
  (`final`, `run`).
-/
import proofs.«127705_j34935263986230_2_alg».proof.Proof.Gen.KernelIdeal.Value
import proofs.«127705_j34935263986230_2_alg».proof.Proof.Body
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Threshold Cert.KernelIdeal.Body

variable (m : (ℓ : Loc nD τ sig) → Buf (Elt Ideal) ℓ) (ρ : Dev nD → PrngReg)

/-- The two windows' block positions, decided over the grid: they agree on the first, third and fourth axes, and
    both are 0 on the second. -/
theorem index_facts : ∀ t : Fin cfg0.N, win0_0.index t (0 : Fin 4) = win0_1.index t (0 : Fin 4)
    ∧ win0_0.index t (1 : Fin 4) = 0
    ∧ win0_1.index t (1 : Fin 4) = 0
    ∧ win0_0.index t (2 : Fin 4) = win0_1.index t (2 : Fin 4)
    ∧ win0_0.index t (3 : Fin 4) = win0_1.index t (3 : Fin 4) :=
  (by decide +kernel : ∀ t : Fin grid0.N, _)

/-- Every pair (first coordinate, half of the rows) is some point's block position. -/
theorem index_onto : ∀ (q0 : Fin 32) (q2 : Fin 2), ∃ t : Fin cfg0.N, win0_1.index t = ![q0.val, 0, q2.val, 0] :=
  (by decide +kernel : ∀ (q0 : Fin 32) (q2 : Fin 2), ∃ t : Fin grid0.N, win0_1.index t = ![q0.val, 0, q2.val, 0])

/-- What point `t` writes back is block `t` of the stacked binary maps of the score map as the region finds it. -/
theorem flushed_eq (c : Dev nD) (t : Fin cfg0.N) :
    (dats m 0 c).flushed 1 t = ((cfg0.win 1).blk t).view.read (Elt Ideal) (bitmaps (V m c main_arg0)) := by
  show (cfg0.win 1).cut (grid0.coords t) ((dats m 0 c).after 1 t) = _
  rw [after0_1, out_eq (iblk m c 0 t)]
  obtain ⟨e0, e1, e2, e3, e4⟩ := index_facts t
  funext j
  have hj0 : (j 0).val < 1 := (j 0).isLt
  show above (V m c main_arg0 (((cfg0.win 0).blk t).view.emb (ix4 (0 : Fin 1) (0 : Fin 1) (j 2 : Fin 512) (j 3 : Fin 1024))))
        (thresholdWord (j 1 : Fin 4))
      = above (V m c main_arg0 (ix4 ((((cfg0.win 1).blk t).view.emb j) 0 : Fin 32) (0 : Fin 1)
          ((((cfg0.win 1).blk t).view.emb j) 2 : Fin 1024) ((((cfg0.win 1).blk t).view.emb j) 3 : Fin 1024)))
        (thresholdWord ((((cfg0.win 1).blk t).view.emb j) 1 : Fin 4))
  have hx : ((cfg0.win 0).blk t).view.emb (ix4 (0 : Fin 1) (0 : Fin 1) (j 2 : Fin 512) (j 3 : Fin 1024))
      = ix4 ((((cfg0.win 1).blk t).view.emb j) 0 : Fin 32) (0 : Fin 1)
          ((((cfg0.win 1).blk t).view.emb j) 2 : Fin 1024) ((((cfg0.win 1).blk t).view.emb j) 3 : Fin 1024) := by
    funext a; apply Fin.ext
    match a with
    | ⟨0, _⟩ => show win0_0.index t (0 : Fin 4) * 1 + 1 * 0 = win0_1.index t (0 : Fin 4) * 1 + 1 * (j 0).val; omega
    | ⟨1, _⟩ => show win0_0.index t (1 : Fin 4) * 1 + 1 * 0 = 0; omega
    | ⟨2, _⟩ => show win0_0.index t (2 : Fin 4) * 512 + 1 * (j 2).val = win0_1.index t (2 : Fin 4) * 512 + 1 * (j 2).val; omega
    | ⟨3, _⟩ => show win0_0.index t (3 : Fin 4) * 1024 + 1 * (j 3).val = win0_1.index t (3 : Fin 4) * 1024 + 1 * (j 3).val; omega
  have hk : (j 1 : Fin 4) = ((((cfg0.win 1).blk t).view.emb j) 1 : Fin 4) := by
    apply Fin.ext
    show (j 1).val = win0_1.index t (1 : Fin 4) * 4 + 1 * (j 1).val
    omega
  rw [hx, ← hk]
  rfl

/-- An index of the result is in point `t`'s block iff each coordinate is in the block's range on its axis. -/
theorem mem_blk (t : Fin cfg0.N) (i : S32x4x1024x1024.Idx) :
    i ∈ ((cfg0.win 1).blk t).view.set ↔ ∀ a : Fin 4, win0_1.index t a * S1x4x512x1024.size a ≤ (i a).val
      ∧ (i a).val < win0_1.index t a * S1x4x512x1024.size a + S1x4x512x1024.size a := by
  show i ∈ ((View.whole main_v0).slice (win0_1.rect t)).set ↔ _
  rw [View.set_slice_whole, Rect.mem_set_unit]
  exact Iff.rfl

/-- Every index (n, k, h, w) of the result is in the block of the point at (n, h / 512). -/
theorem covered (i : S32x4x1024x1024.Idx) :
    ∃ t : Fin cfg0.N, (cfg0.win 1).flush t = true ∧ i ∈ ((cfg0.win 1).blk t).view.set := by
  have hi0 : (i 0).val < 32 := (i 0).isLt
  have hi1 : (i 1).val < 4 := (i 1).isLt
  have hi2 : (i 2).val < 1024 := (i 2).isLt
  have hi3 : (i 3).val < 1024 := (i 3).isLt
  obtain ⟨t, ht⟩ := index_onto ⟨(i 0).val, hi0⟩ ⟨(i 2).val / 512, by omega⟩
  have q0 : win0_1.index t (0 : Fin 4) = (i 0).val := congrFun ht 0
  have q1 : win0_1.index t (1 : Fin 4) = 0 := congrFun ht 1
  have q2 : win0_1.index t (2 : Fin 4) = (i 2).val / 512 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 4 ≤ (i 1).val ∧ (i 1).val < win0_1.index t (1 : Fin 4) * 4 + 4; omega
  | ⟨2, _⟩ => show win0_1.index t (2 : Fin 4) * 512 ≤ (i 2).val ∧ (i 2).val < win0_1.index t (2 : Fin 4) * 512 + 512; omega
  | ⟨3, _⟩ => show win0_1.index t (3 : Fin 4) * 1024 ≤ (i 3).val ∧ (i 3).val < win0_1.index t (3 : Fin 4) * 1024 + 1024; omega

/-- The result array after the run: the stacked binary maps of the score map as launched. -/
theorem final (c : Dev nD) :
    (dats m 0 c).arrAt 1 cfg0.N = bitmaps (m ((c : Thread nD τ).loc main_arg0)) :=
  (dats m 0 c).arrAt_eq_of_cover 1 (bitmaps (V m c main_arg0)) (fun t _ => flushed_eq m c t) covered

/-- Every weakly fair execution of the kernel's program terminates with the result array at the stacked binary maps
    of the score map, and the score map unchanged. -/
theorem run : θ_run defs (onTc (τ := τ) (main (F := Ideal))) ⟨m, fun _ => 0, ρ⟩ fun r => ∀ c : Dev nD,
      r.2.mem ((c : Thread nD τ).loc main_v0) = bitmaps (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Blocks

end
-- ==== Proof.lean ====
/-
  The certificate's claim: a kernel that thresholds a score map against four constants, and its reference.

  Both programs map a score map x of shape [32, 1, 1024, 1024] to four stacked binary maps of shape
  [32, 4, 1024, 1024]: entry (n, k, h, w) is 1 when x(n, 0, h, w) lies strictly above the k-th of the thresholds
  0.2, 0.3, 0.4, 0.5 (each rounded to single precision, the same words on both sides) and 0 otherwise.  The kernel
  does it block by block over a 32 × 2 grid, four stores per block; the reference by repeating the score map and the
  threshold table to the full shape and comparing once.  Over the extended reals the two results are the same
  function of x, index by index: the comparison is the order's, the thresholds are the same numbers, and the one
  place the programs differ — a bit widened and read as a signed integer against the bit read as an unsigned one —
  gives 0 or 1 either way.  No law used needs the inputs to be finite, so the precondition is never opened.

  The three frames: the two kernel programs' runs terminate without a fault and leave the score map as launched
  (the generated frame theorems); the reference's does by its run read back.  The idealized kernel is the kernel's own
  text read over the extended reals, so there is nothing to preserve.  The value claim puts the two runs side by side,
  each ending with its result at the specification's stacked binary maps of its own score map, and the two score
  maps agree.
-/
import proofs.«127705_j34935263986230_2_alg».proof.Defs
import proofs.«127705_j34935263986230_2_alg».proof.Proof.Gen.Kernel
import proofs.«127705_j34935263986230_2_alg».proof.Proof.Gen.Kernel.Skeleton
import proofs.«127705_j34935263986230_2_alg».proof.Proof.Gen.Kernel.Launch
import proofs.«127705_j34935263986230_2_alg».proof.Proof.Gen.Kernel.Points
import proofs.«127705_j34935263986230_2_alg».proof.Proof.Gen.Kernel.Frame
import proofs.«127705_j34935263986230_2_alg».proof.Proof.Gen.KernelIdeal
import proofs.«127705_j34935263986230_2_alg».proof.Proof.Gen.KernelIdeal.Skeleton
import proofs.«127705_j34935263986230_2_alg».proof.Proof.Gen.KernelIdeal.Launch
import proofs.«127705_j34935263986230_2_alg».proof.Proof.Gen.KernelIdeal.Points
import proofs.«127705_j34935263986230_2_alg».proof.Proof.Gen.KernelIdeal.Frame
import proofs.«127705_j34935263986230_2_alg».proof.Proof.Gen.KernelIdeal.Value
import proofs.«127705_j34935263986230_2_alg».proof.Proof.Gen.ReferenceIdeal
import proofs.«127705_j34935263986230_2_alg».proof.Proof.Gen.Pre_finite_inputs
import proofs.«127705_j34935263986230_2_alg».proof.Proof.Spec
import proofs.«127705_j34935263986230_2_alg».proof.Proof.RefRun
import proofs.«127705_j34935263986230_2_alg».proof.Proof.Body
import proofs.«127705_j34935263986230_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs to the end and leaves the score map unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run read back, with the result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote nothing. -/
theorem preserves : Cert.preserves_Kernel_KernelIdeal := trivial

/-- From score maps that agree, both runs end with the result at the stacked binary maps of the score map. -/
theorem algebraic : Cert.algebraic_KernelIdeal_ReferenceIdeal := by
  intro m ρ m' ρ' _ hagree
  refine ⟨fun c => Cert.Threshold.bitmaps (m ((c.tc : Thread Cert.KernelIdeal.nD Cert.KernelIdeal.τ).loc Cert.KernelIdeal.main_arg0)),
    Cert.KernelIdeal.Blocks.run m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.RefValue.result_eq_bitmaps, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
